-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x8192 .f32) (main_arg1 : FVec F S4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4096x8192 : Shape := ⟨2, ![4096, 8192]⟩
abbrev S4096 : Shape := ⟨1, ![4096]⟩
abbrev S4096x1 : Shape := ⟨2, ![4096, 1]⟩
abbrev S128x8192 : Shape := ⟨2, ![128, 8192]⟩
abbrev S128x1 : Shape := ⟨2, ![128, 1]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096, .f32⟩
  | .hbm, ⟨2, _⟩ => ⟨S4096x1, .f32⟩
  | .hbm, ⟨3, _⟩ => ⟨S4096x8192, .f32⟩
  | .local _ .vmem, ⟨0, _⟩ => ⟨S128x8192, .f32⟩
  | .local _ .vmem, ⟨1, _⟩ => ⟨S128x8192, .f32⟩
  | .local _ .vmem, ⟨2, _⟩ => ⟨S128x1, .f32⟩
  | .local _ .vmem, ⟨3, _⟩ => ⟨S128x1, .f32⟩
  | .local _ .vmem, ⟨4, _⟩ => ⟨S128x8192, .f32⟩
  | .local _ .vmem, ⟨5, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  inb_S128x8192_S128x4096_0_0 : ∀ a, (![0, 0] : Fin 2 → Nat) a + S128x4096.size a ≤ S128x8192.size a
  h_S128x4096 : 0 < S128x4096.numel
  inb_S128x8192_S128x4096_0_4096 : ∀ a, (![0, 4096] : Fin 2 → Nat) a + S128x4096.size a ≤ S128x8192.size a
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .f32 = 32 ∨ (Rect.block (s := S4096x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096 : Shape := ⟨1, ![4096]⟩
abbrev S4096x4096 : Shape := ⟨2, ![4096, 4096]⟩
abbrev S4096x1 : Shape := ⟨2, ![4096, 1]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096, .f32⟩
  | .hbm, ⟨2, _⟩ => ⟨S4096x4096, .f32⟩
  | .hbm, ⟨3, _⟩ => ⟨S4096x4096, .f32⟩
  | .hbm, ⟨4, _⟩ => ⟨S4096x1, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_cst_0 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_cst_1 : Ref sig .tc := ⟨.hbm, 12, rfl⟩
abbrev main_call0_call0_call0_v0 : Ref sig .tc := ⟨.hbm, 13, rfl⟩
abbrev main_call0_call0_call0_v1 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩

abbrev nD : Nat := 1
abbrev τ : Topo := Topo.v7x

variable {F : FTy → Type} [FloatOps F]

class Facts₀ : Prop where
  slices_S4096x8192_S4096x4096_0_0 : S4096x8192.Slices ![0, 0] S4096x4096
  slices_S4096x8192_S4096x4096_0_4096 : S4096x8192.Slices ![0, 4096] S4096x4096
  bcast_S4096_S4096x1_0 : S4096.BroadcastsInDim S4096x1 (![0] : Fin 1 → Fin S4096x1.rank)
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  concatenates_S4096x4096_S4096x4096_S4096x8192_d1 : Shape.Concatenates [S4096x4096, S4096x4096] S4096x8192 1

variable [Facts₀]

class Facts : Prop extends Facts₀ where

variable [Facts]
-- ==== Proof.Selu.lean ====
/-
  The mathematics shared by the two programs, stated once over the extended reals.

  Both programs send `x : [4096, 8192]` and `weight : [4096]` to the array whose left half (columns below 4096) is
  the left half `p` of `x`, and whose right half is `weight[r] * selu(p[r, c]) + q[r, c]` with `q` the right half of
  `x`:  `selu(t) = scale * (t if t > 0 else alpha * (e^t - 1))`.
  The kernel writes `e^t - 1` with the literal one; the reference writes `expm1(t if not t > 0 else 0)`: where the
  outer choice takes the exponential branch the inner one has handed `t` itself, and `expm1 t = e^t - 1`, so the
  two spellings are one function of `t` on every extended real (no finiteness is used).
-/
import Idealize.ShloMosaic.PureOps.Ideal
import Idealize.ShloMosaic.Lib.ValueIdx
import Idealize.ShloMosaic.Lib.IdealHost

noncomputable section

namespace Cert.SeluRows

open Idealize.ShloMosaic Idealize.ShloMosaic.ValueIdx

/-- `selu` on the extended reals in the kernel's spelling: `scale * (t if t > 0 else alpha * (e^t - 1))`, the three
    constants the binary32 values both programs carry. -/
def selu (t : EReal) : EReal :=
  Ideal.ofBits .f32 0x3F867D5F#32 *
    Scalar.select (Ideal.cmp .ogt t (Ideal.ofBits .f32 0x00000000#32)) t
      (Ideal.ofBits .f32 0x3FD62D7D#32 * (Ideal.exp t - Ideal.ofBits .f32 0x3F800000#32))

/-- The reference's spelling is the same function: under the outer choice's exponential branch the inner choice
    is `t`, and the literal one is the extended real one. -/
theorem selu_expm1 (t : EReal) :
    Ideal.ofBits .f32 0x3F867D5F#32 *
      Scalar.select (Ideal.cmp .ogt t (Ideal.ofBits .f32 0x00000000#32)) t
        (Ideal.ofBits .f32 0x3FD62D7D#32 *
          (Ideal.exp (Scalar.select (Ideal.cmp .ogt t (Ideal.ofBits .f32 0x00000000#32)) (Ideal.ofBits .f32 0x00000000#32) t) - 1))
      = selu t := by
  unfold selu
  rcases BitVec.eq_zero_or_eq_one (Ideal.cmp .ogt t (Ideal.ofBits .f32 0x00000000#32)) with h | h
  · rw [h, select_zero, select_zero, select_zero, Ideal.ofBits_one_f32]
  · rw [h, select_one, select_one]

/-- One entry of the result over an array of `n` rows and 8192 columns with one weight per row: the entry of `x`
    itself in the left half, and in the right half the row's weight times `selu` of the entry 4096 columns to the
    left, plus the entry of `x`. (Stated for any number of rows, so that a block of rows and the whole array are
    read by the same formula.) -/
def entry {n : Nat} (x : (⟨2, ![n, 8192]⟩ : Shape).Idx → EReal) (w : Fin n → EReal) (r : Fin n) (c : Fin 8192) : EReal :=
  if h : c.val < 4096 then x (ix2 r c)
  else w r * selu (x (ix2 r ⟨c.val - 4096, by omega⟩)) + x (ix2 r c)

theorem entry_left {n : Nat} (x : (⟨2, ![n, 8192]⟩ : Shape).Idx → EReal) (w : Fin n → EReal)
    (r : Fin n) (c : Fin 8192) (h : c.val < 4096) : entry x w r c = x (ix2 r c) := dif_pos h

theorem entry_right {n : Nat} (x : (⟨2, ![n, 8192]⟩ : Shape).Idx → EReal) (w : Fin n → EReal)
    (r : Fin n) (c : Fin 8192) (c' : Fin 8192) (hc' : c'.val + 4096 = c.val) :
    entry x w r c = w r * selu (x (ix2 r c')) + x (ix2 r c) := by
  have hlt : c.val - 4096 < 8192 := by have := c.isLt; omega
  have e : c' = ⟨c.val - 4096, hlt⟩ := Fin.ext (by show c'.val = c.val - 4096; omega)
  rw [e]
  exact dif_neg (by omega)

/-- Rows of a block are rows of the array: if row `a` of `x` (and its weight) is row `σ a` of `X` (and its weight),
    the entries of the two results there agree. -/
theorem entry_rows {n N : Nat} (x : (⟨2, ![n, 8192]⟩ : Shape).Idx → EReal) (X : (⟨2, ![N, 8192]⟩ : Shape).Idx → EReal)
    (w : Fin n → EReal) (W : Fin N → EReal) (σ : Fin n → Fin N)
    (hx : ∀ a c, x (ix2 a c) = X (ix2 (σ a) c)) (hw : ∀ a, w a = W (σ a)) (a : Fin n) (c : Fin 8192) :
    entry x w a c = entry X W (σ a) c := by
  unfold entry
  by_cases h : c.val < 4096
  · rw [dif_pos h, dif_pos h, hx]
  · rw [dif_neg h, dif_neg h, hx, hx, hw]

/-- The whole result array as one function of the two arguments. -/
def result (x : (⟨2, ![4096, 8192]⟩ : Shape).Idx → EReal) (w : (⟨1, ![4096]⟩ : Shape).Idx → EReal) :
    (⟨2, ![4096, 8192]⟩ : Shape).Idx → EReal :=
  fun i => entry x (fun r => w (ix1 r)) (i 0) (i 1)

end Cert.SeluRows

end
-- ==== Proof.KernelValue.lean ====
/-
  What the kernel's result array holds after the run, as one function of the two argument arrays.

  The grid has 32 points; point `t` works on rows `128 t … 128 t + 127`: it is handed those rows of `x` (a
  [128, 8192] block), the same rows of the weight column (a [128, 1] block), and writes back a [128, 8192] block.
  The body stores the block's left half unchanged and, into the right half, `w * selu(left) + right` with the
  weight column broadcast along the row. So the block written at point `t` is rows `128 t …` of
  `Cert.SeluRows.result x weight`; the 32 blocks tile the array, hence the array ends at that function.
-/
import proofs.«179349_j15307263442966_1_alg».proof.Proof.Gen.KernelIdeal.Value
import proofs.«179349_j15307263442966_1_alg».proof.Proof.Selu
import Idealize.ShloMosaic.Lib.Pipeline.Value
import Idealize.ShloMosaic.Lib.ValueIdx
import Idealize.ShloMosaic.Lib.StableHlo.Run

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)
open Cert.SeluRows (selu entry result)

/-! ## The body's arithmetic at one entry -/

/-- The weight column of a block, cast to its own shape and broadcast along the row, read at `(a, b)` is the
    column's entry of row `a`. -/
theorem column_along_row (v : FVec Ideal S128x1 .f32) (h1 : S128x1.ShapeCasts S128x1) (h2 : S128x1.Broadcasts S128x4096)
    (a : Fin 128) (b : Fin 4096) :
    broadcastTo S128x4096 (shapeCast S128x1 v h1) h2 (ix2 a b) = v (ix2 a (0 : Fin 1)) := by
  rw [shapeCast_self]
  exact broadcastTo_apply v h2 (ix2 a b) (ix2 a (0 : Fin 1)) (fun d => by
    match d with
    | ⟨0, _⟩ => rfl
    | ⟨1, _⟩ => rfl)

/-- The value stored into the right half, at `(a, b)`: the row's weight times `selu` of the left half's entry, plus
    the right half's entry. -/
theorem pay_apply (v0 v1 : Vec Ideal S128x4096 .f32) (v12 : Vec Ideal S128x1 .f32) (a : Fin 128) (b : Fin 4096) :
    k0_pay1 v0 v1 v12 (ix2 a b) = v12 (ix2 a (0 : Fin 1)) * selu (v0 (ix2 a b)) + v1 (ix2 a b) := by
  unfold k0_pay1
  exact congrArg (fun z : EReal => z * selu (v0 (ix2 a b)) + v1 (ix2 a b)) (column_along_row v12 _ _ a b)

/-! ## The block a point leaves -/

/-- What the body leaves in its output block, entry by entry, from the block of `x` and the block of the weight
    column it was handed: the two stores are the left and the right half of the block, and each holds the
    block's own `entry` (the left half a copy of the loaded left half, the right half `pay_apply`). -/
theorem out_entry (x0 : Vec Ideal S128x8192 .f32) (x1 : Vec Ideal S128x1 .f32) (y : S128x8192.Idx) :
    out0_2 x0 x1 y = entry x0 (fun a => x1 (ix2 a (0 : Fin 1))) (y 0) (y 1) := by
  unfold out0_2
  refine View.canon_apply_of_pieces (Val := Elt Ideal) (e := .f32)
    (fun y : S128x8192.Idx => (entry x0 (fun a => x1 (ix2 a (0 : Fin 1))) (y 0) (y 1) : EReal)) _
    (List.forall_mem_cons.2 ⟨?_, List.forall_mem_cons.2 ⟨?_, fun _ h => (List.not_mem_nil h).elim⟩⟩) y (cover0_2 _ _ y)
  · -- the right half: columns 4096 + b
    intro z
    obtain ⟨a, b, rfl⟩ : ∃ (a : Fin 128) (b : Fin 4096), z = ix2 a b := ⟨z 0, z 1, eq_ix2 z⟩
    have hb : b.val < 4096 := b.isLt
    have e0 : r0_0.emb (ix2 a b) = ix2 a (⟨b.val, by omega⟩ : Fin 8192) := funext fun d => Fin.ext (by
      match d with
      | ⟨0, _⟩ => show 0 + 1 * a.val = a.val; omega
      | ⟨1, _⟩ => show 0 + 1 * b.val = b.val; omega)
    have e1 : r0_1.emb (ix2 a b) = ix2 a (⟨4096 + b.val, by omega⟩ : Fin 8192) := funext fun d => Fin.ext (by
      match d with
      | ⟨0, _⟩ => show 0 + 1 * a.val = a.val; omega
      | ⟨1, _⟩ => show 4096 + 1 * b.val = 4096 + b.val; omega)
    have e2 : r0_2.emb (ix2 a (0 : Fin 1)) = ix2 a (0 : Fin 1) := funext fun d => Fin.ext (by
      match d with
      | ⟨0, _⟩ => show 0 + 1 * a.val = a.val; omega
      | ⟨1, _⟩ => rfl)
    show k0_pay1 (View.ld x0 r0_0) (View.ld x0 r0_1) (View.ld x1 r0_2) (ix2 a b)
      = entry x0 (fun a => x1 (ix2 a (0 : Fin 1))) ((r0_1.emb (ix2 a b)) 0) ((r0_1.emb (ix2 a b)) 1)
    rw [e1]
    refine (pay_apply _ _ _ a b).trans ?_
    show x1 (r0_2.emb (ix2 a (0 : Fin 1))) * selu (x0 (r0_0.emb (ix2 a b))) + x0 (r0_1.emb (ix2 a b)) = _
    rw [e0, e1, e2]
    exact (Cert.SeluRows.entry_right x0 (fun a => x1 (ix2 a (0 : Fin 1))) a ⟨4096 + b.val, by omega⟩ ⟨b.val, by omega⟩
      (by show b.val + 4096 = 4096 + b.val; omega)).symm
  · -- the left half: columns b
    intro z
    obtain ⟨a, b, rfl⟩ : ∃ (a : Fin 128) (b : Fin 4096), z = ix2 a b := ⟨z 0, z 1, eq_ix2 z⟩
    have hb : b.val < 4096 := b.isLt
    have e0 : r0_0.emb (ix2 a b) = ix2 a (⟨b.val, by omega⟩ : Fin 8192) := funext fun d => Fin.ext (by
      match d with
      | ⟨0, _⟩ => show 0 + 1 * a.val = a.val; omega
      | ⟨1, _⟩ => show 0 + 1 * b.val = b.val; omega)
    show x0 (r0_0.emb (ix2 a b)) = entry x0 (fun a => x1 (ix2 a (0 : Fin 1))) ((r0_0.emb (ix2 a b)) 0) ((r0_0.emb (ix2 a b)) 1)
    rw [e0]
    exact (Cert.SeluRows.entry_left x0 (fun a => x1 (ix2 a (0 : Fin 1))) a ⟨b.val, by omega⟩ hb).symm

/-- A block whose rows are rows `128 k …` of `X`, handed the weights of those rows, leaves rows `128 k …` of
    `result X W`. -/
theorem out_rows (x0 : Vec Ideal S128x8192 .f32) (x1 : Vec Ideal S128x1 .f32)
    (X : S4096x8192.Idx → EReal) (W : S4096.Idx → EReal) (k : Nat) (hk : k < 32)
    (h0 : ∀ (a : Fin 128) (c : Fin 8192), x0 (ix2 a c) = X (ix2 (⟨k * 128 + a.val, by omega⟩ : Fin 4096) c))
    (h1 : ∀ a : Fin 128, x1 (ix2 a (0 : Fin 1)) = W (ix1 (⟨k * 128 + a.val, by omega⟩ : Fin 4096)))
    (y : S128x8192.Idx) (i : S4096x8192.Idx) (hi0 : (i 0).val = k * 128 + (y 0).val) (hi1 : (i 1).val = (y 1).val) :
    out0_2 x0 x1 y = result X W i := by
  have hy0 : (y 0).val < 128 := (y 0).isLt
  have ei : i = ix2 (⟨k * 128 + (y 0).val, by omega⟩ : Fin 4096) (y 1) := by
    refine (eq_ix2 i).trans ?_
    congr 1
    · exact Fin.ext hi0
    · exact Fin.ext hi1
  rw [out_entry, ei]
  exact Cert.SeluRows.entry_rows x0 X _ (fun r => W (ix1 r)) (fun a : Fin 128 => (⟨k * 128 + a.val, by omega⟩ : Fin 4096)) h0 h1 (y 0) (y 1)

/-! ## From blocks to the array -/

variable (m : (ℓ : Loc nD τ sig) → Buf (Elt Ideal) ℓ) (ρ : Dev nD → PrngReg)

/-- The printed index maps, decided over the 32 grid points: the block of `x`, the block of the weight column and
    the output block of point `t` all start at block row `index t 0` (below 32) and block column 0. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) < 32 :=
  (by decide +kernel : ∀ t : Fin grid0.N, _)

/-- Every block row is some point's. -/
theorem idx_onto : ∀ q : Fin 32, ∃ t : Fin cfg0.N, win0_2.index t = ![q.val, 0] :=
  (by decide +kernel : ∀ q : Fin 32, ∃ t : Fin grid0.N, win0_2.index t = ![q.val, 0])

/-- The weight column as the region finds it: the one host operation before the region has reshaped the weight
    vector to a [4096, 1] column. -/
theorem weight_column (c : Dev nD) :
    (V m c main_v0 : S4096x1.Idx → EReal) = shapeCast S4096x1 (m ((c : Thread nD τ).loc main_arg1)) shapeCasts_S4096_S4096x1 := by
  dsimp only [Gen.V, Gen.hostOps0]
  after_results
  rfl

/-- That column at row `r` is the weight of row `r`. -/
theorem column_apply (w : FVec Ideal S4096 .f32) (h : S4096.ShapeCasts S4096x1) (r : Fin 4096) :
    shapeCast S4096x1 w h (ix2 r (0 : Fin 1)) = w (ix1 r) :=
  shapeCast_apply w h (ix2 r (0 : Fin 1)) (ix1 r) (by
    rw [Shape.rowMajor_val_one, Shape.rowMajor_val_two]
    show r.val = r.val * 1 + 0
    omega)

/-- The block of `x` handed to point `t`, at `(a, b)`: `x` at the row `128 · index + a`. -/
theorem x_block_apply (c : Dev nD) (t : Fin cfg0.N) (a : Fin 128) (b : Fin 8192) (i : S4096x8192.Idx)
    (hi0 : (i 0).val = win0_0.index t (0 : Fin 2) * 128 + a.val) (hi1 : (i 1).val = win0_0.index t (1 : Fin 2) * 8192 + b.val) :
    (iblk m c 0 t : Vec Ideal S128x8192 .f32) (ix2 a b) = (m ((c : Thread nD τ).loc main_arg0) : S4096x8192.Idx → EReal) i := by
  unfold iblk
  rw [View.read_apply]
  show V m c main_arg0 _ = _
  rw [V_main_arg0]
  refine congrArg (m ((c : Thread nD τ).loc main_arg0) : S4096x8192.Idx → EReal) (funext fun d => Fin.ext ?_)
  match d with
  | ⟨0, _⟩ => show win0_0.index t (0 : Fin 2) * 128 + 1 * a.val = (i 0).val; omega
  | ⟨1, _⟩ => show win0_0.index t (1 : Fin 2) * 8192 + 1 * b.val = (i 1).val; omega

/-- The block of the weight column handed to point `t`, at row `a`: the weight of row `128 · index + a`. -/
theorem w_block_apply (c : Dev nD) (t : Fin cfg0.N) (a : Fin 128) (r : Fin 4096)
    (hr : r.val = win0_1.index t (0 : Fin 2) * 128 + a.val) (h1 : win0_1.index t (1 : Fin 2) = 0) :
    (iblk m c 1 t : Vec Ideal S128x1 .f32) (ix2 a (0 : Fin 1)) = (m ((c : Thread nD τ).loc main_arg1) : S4096.Idx → EReal) (ix1 r) := by
  unfold iblk
  rw [View.read_apply]
  show (V m c main_v0 : S4096x1.Idx → EReal) _ = _
  rw [weight_column]
  refine Eq.trans (congrArg _ (funext fun d => Fin.ext ?_)) (column_apply _ _ r)
  match d with
  | ⟨0, _⟩ => show win0_1.index t (0 : Fin 2) * 128 + 1 * a.val = r.val; omega
  | ⟨1, _⟩ => show win0_1.index t (1 : Fin 2) * 1 + 1 * 0 = 0; omega

/-- WHAT POINT `t` WRITES BACK is block `t` of `result` of the two arguments. -/
theorem flushed_eq (c : Dev nD) (t : Fin cfg0.N) :
    (dats m 0 c).flushed 2 t = ((cfg0.win 2).blk t).view.read (Elt Ideal)
      (result (m ((c : Thread nD τ).loc main_arg0)) (m ((c : Thread nD τ).loc main_arg1))) := by
  rw [Cert.KernelIdeal.Value.flushed2]
  obtain ⟨e0, e1, e2, e3, e4, e5⟩ := idx_facts t
  funext j
  show out0_2 (iblk m c 0 t) (iblk m c 1 t) j
    = result (m ((c : Thread nD τ).loc main_arg0)) (m ((c : Thread nD τ).loc main_arg1)) (((cfg0.win 2).blk t).view.emb j)
  have hj0 : (j 0).val < 128 := (j 0).isLt
  refine out_rows (iblk m c 0 t) (iblk m c 1 t) _ _ (win0_2.index t (0 : Fin 2)) e5 (fun a b => ?_) (fun a => ?_) j _ ?_ ?_
  · exact x_block_apply m c t a b _ (by show win0_2.index t (0 : Fin 2) * 128 + a.val = _; omega) (by show b.val = _; omega)
  · exact w_block_apply m c t a _ (by show win0_2.index t (0 : Fin 2) * 128 + a.val = _; omega) e3
  · show win0_2.index t (0 : Fin 2) * 128 + 1 * (j 0).val = _; omega
  · show win0_2.index t (1 : Fin 2) * 8192 + 1 * (j 1).val = _; omega

/-- An index of the array is in point `t`'s block iff each coordinate is in the block's range on its axis. -/
theorem mem_blk (t : Fin cfg0.N) (i : S4096x8192.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v1).slice (win0_2.rect t)).set ↔ _
  rw [View.set_slice_whole, Rect.mem_set_unit]
  exact Iff.rfl

/-- The 32 blocks tile the array: row `r` is in the block of the point whose block row is `r / 128`. -/
theorem cover (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- THE ARRAY after the run is `result` of the two arguments. -/
theorem final (c : Dev nD) : (dats m 0 c).arrAt 2 cfg0.N
    = result (m ((c : Thread nD τ).loc main_arg0)) (m ((c : Thread nD τ).loc main_arg1)) :=
  (dats m 0 c).arrAt_eq_of_cover 2 _ (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Rows

end
-- ==== Proof.RefRun.lean ====
/-
  The reference program run as a straight line.

  `reference(x, weight)` splits `x : [4096, 8192]` into its left half `p` and right half `q`, and returns
  `p` beside `weight[:, None] * selu(p) + q`. jax outlines `selu`, the `elu` inside it and the two `where`s inside
  that as functions of the module; inlined at their call sites, @main is the twenty-seven host operations listed
  here in order. Every weakly fair execution runs them one after another, so the result buffer ends at the
  operations' composed value `out x weight` of the two arguments, and the arguments are left as they were.
-/
import proofs.«179349_j15307263442966_1_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the two halves of `x` and the weight as a column (3); inside
    `selu` the constant alpha (1); inside `elu` the zero, its broadcast and `p > 0`, twice, and one more zero (7);
    the inner `where`: the zero converted, broadcast, and `select (p > 0) 0 p` (3); `expm1` of that, alpha converted
    and broadcast, their product (4); the outer `where`: `select (p > 0) p (alpha * expm1 …)` (1); the scale, its
    broadcast, the product (3); then the weight column broadcast along the rows, times `selu p`, plus `q`, and the
    concatenation with `p` (4). -/
abbrev ops : List (HloOp τ sig (Elt F)) :=
  [ unary main_arg0 main_v0 ((extractStridedSlice S4096x4096 ![0, 0] · slices_S4096x8192_S4096x4096_0_0) : (⟨S4096x8192, .f32⟩ : BufTy).Contents (Elt F) → (⟨S4096x4096, .f32⟩ : BufTy).Contents (Elt F)),
    unary main_arg0 main_v1 ((extractStridedSlice S4096x4096 ![0, 4096] · slices_S4096x8192_S4096x4096_0_4096) : (⟨S4096x8192, .f32⟩ : BufTy).Contents (Elt F) → (⟨S4096x4096, .f32⟩ : BufTy).Contents (Elt F)),
    unary main_arg1 main_v2 (broadcastInDim S4096x1 ![0] bcast_S4096_S4096x1_0 : (⟨S4096, .f32⟩ : BufTy).Contents (Elt F) → (⟨S4096x1, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S4096x4096 ![] bcast_S_S4096x4096),
    TRef.binary (.of main_v0) main_call0.call0.v0 main_call0.call0.v1 (cmpf .ogt),
    TRef.nullary main_call0.call0.cst_0 (constant S_ .f32 0x00000000#32),
    TRef.unary main_call0.call0.cst_0 main_call0.call0.v2 (broadcastInDim S4096x4096 ![] bcast_S_S4096x4096),
    TRef.binary (.of main_v0) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S4096x4096 ![] bcast_S_S4096x4096),
    TRef.ternary main_call0.call0.v3 main_call0.call0.call0.v1 (.of main_v0) main_call0.call0.call0.v2 select,
    TRef.unary main_call0.call0.call0.v2 main_call0.call0.v5 Host.expm1,
    TRef.unary main_call0.cst main_call0.call0.v6 id,
    TRef.unary main_call0.call0.v6 main_call0.call0.v7 (broadcastInDim S4096x4096 ![] bcast_S_S4096x4096),
    TRef.binary main_call0.call0.v7 main_call0.call0.v5 main_call0.call0.v8 mulf,
    TRef.ternary main_call0.call0.v1 (.of main_v0) main_call0.call0.v8 main_call0.call0.call1.v0 select,
    TRef.nullary main_call0.cst_0 (constant S_ .f32 0x3F867D5F#32),
    TRef.unary main_call0.cst_0 main_call0.v1 (broadcastInDim S4096x4096 ![] bcast_S_S4096x4096),
    TRef.binary main_call0.v1 main_call0.call0.call1.v0 main_call0.v2 mulf,
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    binary main_v4 main_v3 main_v5 (mulf : (⟨S4096x4096, .f32⟩ : BufTy).Contents (Elt F) → (⟨S4096x4096, .f32⟩ : BufTy).Contents (Elt F) → (⟨S4096x4096, .f32⟩ : BufTy).Contents (Elt F)),
    binary main_v5 main_v1 main_v6 (addf : (⟨S4096x4096, .f32⟩ : BufTy).Contents (Elt F) → (⟨S4096x4096, .f32⟩ : BufTy).Contents (Elt F) → (⟨S4096x4096, .f32⟩ : BufTy).Contents (Elt F)),
    binary main_v0 main_v6 main_v7 ((fun a b => concatenate S4096x8192 1 [⟨S4096x4096, a⟩, ⟨S4096x4096, b⟩] concatenates_S4096x4096_S4096x4096_S4096x8192_d1) : (⟨S4096x4096, .f32⟩ : BufTy).Contents (Elt F) → (⟨S4096x4096, .f32⟩ : BufTy).Contents (Elt F) → (⟨S4096x8192, .f32⟩ : BufTy).Contents (Elt F)) ]

set_option maxRecDepth 1024 in
/-- @main is that straight line: the outlined functions unfolded at their calls, sequencing reassociated. -/
theorem main_eq (c : Dev nD) : main (F := F) c = seq ops := by
  simp only [main, fn_selu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., nullary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., unary_bufs_sub .., unary_bufs_sub .., binary_bufs_sub ..,
    ternary_bufs_sub .., nullary_bufs_sub .., unary_bufs_sub .., binary_bufs_sub .., unary_bufs_sub .., binary_bufs_sub ..,
    binary_bufs_sub .., binary_bufs_sub ..⟩

/-- The reference's result as one term of its arguments: with `p`, `q` the two halves of `x`,
    `p ++ (w[:, None] * (scale * where(p > 0, p, alpha * expm1(where(p > 0, 0, p)))) + q)` along axis 1. -/
def out (x : FVec F S4096x8192 .f32) (w : FVec F S4096 .f32) : FVec F S4096x8192 .f32 :=
  concatenate S4096x8192 1
    [⟨S4096x4096, extractStridedSlice S4096x4096 ![0, 0] x slices_S4096x8192_S4096x4096_0_0⟩,
     ⟨S4096x4096, addf
        (mulf (broadcastInDim S4096x4096 ![0, 1] bcast_S4096x1_S4096x4096_0_1 (broadcastInDim S4096x1 ![0] bcast_S4096_S4096x1_0 w))
          (mulf (broadcastInDim S4096x4096 ![] bcast_S_S4096x4096 (constant S_ .f32 0x3F867D5F#32))
            (select
              (cmpf .ogt (extractStridedSlice S4096x4096 ![0, 0] x slices_S4096x8192_S4096x4096_0_0)
                (broadcastInDim S4096x4096 ![] bcast_S_S4096x4096 (constant S_ .f32 0x00000000#32)))
              (extractStridedSlice S4096x4096 ![0, 0] x slices_S4096x8192_S4096x4096_0_0)
              (mulf (broadcastInDim S4096x4096 ![] bcast_S_S4096x4096 (constant S_ .f32 0x3FD62D7D#32))
                (Host.expm1
                  (select
                    (cmpf .ogt (extractStridedSlice S4096x4096 ![0, 0] x slices_S4096x8192_S4096x4096_0_0)
                      (broadcastInDim S4096x4096 ![] bcast_S_S4096x4096 (constant S_ .f32 0x00000000#32)))
                    (broadcastInDim S4096x4096 ![] bcast_S_S4096x4096 (constant S_ .f32 0x00000000#32))
                    (extractStridedSlice S4096x4096 ![0, 0] x slices_S4096x8192_S4096x4096_0_0)))))))
        (extractStridedSlice S4096x4096 ![0, 4096] x slices_S4096x8192_S4096x4096_0_4096)⟩]
    concatenates_S4096x4096_S4096x4096_S4096x8192_d1

set_option maxRecDepth 8192 in
set_option maxHeartbeats 400000 in
/-- The fold of the operations at the result buffer is `out` of what the argument buffers hold: each operation's result
    read at its own buffer, every other buffer as it was. -/
theorem out_eq (V : Valuation τ sig (Elt F)) :
    after ops V (main_v7 : DevRef τ sig) = out (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, from any memory with zero counters: every weakly fair execution of @main terminates with the
    result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.Straight

end
-- ==== Proof.RefValue.lean ====
/-
  The reference's composed term, read entry by entry, is `Cert.SeluRows.result`.

  At `(r, c)` the concatenation along axis 1 reads its first piece (the left half of `x`) when `c < 4096` and its
  second piece at `(r, c - 4096)` otherwise. The second piece is pointwise: the weight column (the weight vector
  as [4096, 1], broadcast along the row) times `scale * where(p > 0, p, alpha * expm1(where(p > 0, 0, p)))` plus the
  right half of `x`; the two slices of `x` read `x` at `(r, c - 4096)` and at `(r, c)`.
-/
import proofs.«179349_j15307263442966_1_alg».proof.Proof.RefRun
import proofs.«179349_j15307263442966_1_alg».proof.Proof.Selu
import Idealize.ShloMosaic.Lib.Pipeline.Value
import Idealize.ShloMosaic.Lib.ValueIdx

noncomputable section

namespace Cert.ReferenceIdeal.Rows

open Cert.ReferenceIdeal Cert.ReferenceIdeal.Gen Cert.ReferenceIdeal.Straight Idealize.ShloMosaic Idealize.ShloMosaic.TcCoe
open Idealize.ShloMosaic.ValueIdx
open Cert.SeluRows (selu entry result selu_expm1 entry_left entry_right)

/-- A scalar constant broadcast to the square is that constant at every entry. -/
theorem const_apply (b : BitVec 32) (h : S_.BroadcastsInDim S4096x4096 (![] : Fin 0 → Fin S4096x4096.rank)) (i : S4096x4096.Idx) :
    broadcastInDim S4096x4096 ![] h (constant (F := Ideal) S_ .f32 b) i = Ideal.ofBits .f32 b := rfl

/-- The weight vector as a column, broadcast along the row, read at `(r, c)` is the weight of row `r`. -/
theorem weight_apply (w : FVec Ideal S4096 .f32) (h1 : S4096.BroadcastsInDim S4096x1 (![0] : Fin 1 → Fin S4096x1.rank))
    (h2 : S4096x1.BroadcastsInDim S4096x4096 (![0, 1] : Fin 2 → Fin S4096x4096.rank)) (r : Fin 4096) (c : Fin 4096) :
    broadcastInDim S4096x4096 ![0, 1] h2 (broadcastInDim S4096x1 ![0] h1 w) (ix2 r c) = w (ix1 r) := by
  refine (broadcastInDim_apply _ h2 _ (ix2 r c) (ix2 r (0 : Fin 1)) (fun a => ?_)).trans ?_
  · match a with
    | ⟨0, _⟩ => rfl
    | ⟨1, _⟩ => rfl
  · exact broadcastInDim_apply _ h1 w (ix2 r (0 : Fin 1)) (ix1 r) (fun a => by
      match a with
      | ⟨0, _⟩ => rfl)

/-- A slice of `x` of 4096 columns from column `o`, read at `(r, c)`, is `x` at `(r, o + c)`. -/
theorem slice_apply (x : FVec Ideal S4096x8192 .f32) (o : Nat) (h : S4096x8192.Slices ![0, o] S4096x4096)
    (r : Fin 4096) (c : Fin 4096) (c' : Fin 8192) (hc : c'.val = o + c.val) :
    extractStridedSlice S4096x4096 ![0, o] x h (ix2 r c) = x (ix2 r c') :=
  extractStridedSlice_apply _ x h (ix2 r c) (ix2 r c') (fun a => by
    match a with
    | ⟨0, _⟩ => show r.val = 0 + r.val; omega
    | ⟨1, _⟩ => show c'.val = o + c.val; exact hc)

/-- The right half's pointwise arithmetic at one entry. -/
theorem right_apply {S : Shape} (P Q Wc SC Z AL : FVec Ideal S .f32) (i : S.Idx) :
    addf (mulf Wc (mulf SC (select (cmpf .ogt P Z) P (mulf AL (Host.expm1 (select (cmpf .ogt P Z) Z P)))))) Q i
      = Wc i * (SC i * Scalar.select (Ideal.cmp .ogt (P i) (Z i)) (P i)
          (AL i * (Ideal.exp (Scalar.select (Ideal.cmp .ogt (P i) (Z i)) (Z i) (P i)) - 1))) + Q i := rfl

/-- The reference's result is `result` of its arguments. -/
theorem out_eq_result (x : FVec Ideal S4096x8192 .f32) (w : FVec Ideal S4096 .f32) :
    out (F := Ideal) x w = result x w := by
  funext i
  obtain ⟨r, c, rfl⟩ : ∃ (r : Fin 4096) (c : Fin 8192), i = ix2 r c := ⟨i 0, i 1, eq_ix2 i⟩
  show out (F := Ideal) x w (ix2 r c) = entry x (fun r => w (ix1 r)) r c
  unfold out
  by_cases h : c.val < 4096
  · rw [entry_left _ _ _ _ h]
    refine (concatenate_pair_apply_left (t := S4096x8192) (s₁ := S4096x4096) (s₂ := S4096x4096) (1 : Fin 2) _ _ _ (ix2 r c) rfl (ix2 r (⟨c.val, h⟩ : Fin 4096)) (fun b => ?_)).trans ?_
    · match b with
      | ⟨0, _⟩ => rfl
      | ⟨1, _⟩ => rfl
    · exact slice_apply x 0 _ r ⟨c.val, h⟩ c (by show c.val = 0 + c.val; omega)
  · have hc : 4096 ≤ c.val := Nat.le_of_not_lt h
    have hc8 : c.val < 8192 := c.isLt
    have hlt : c.val - 4096 < 4096 := by omega
    have hlt' : c.val - 4096 < 8192 := by omega
    rw [entry_right x _ r c ⟨c.val - 4096, hlt'⟩ (by show c.val - 4096 + 4096 = c.val; omega)]
    refine (concatenate_pair_apply_right (t := S4096x8192) (s₁ := S4096x4096) (s₂ := S4096x4096) (1 : Fin 2) _ _ _ (ix2 r c) rfl rfl (ix2 r (⟨c.val - 4096, hlt⟩ : Fin 4096)) (fun b hb => ?_) ?_).trans ?_
    · have h2 : b.val < 2 := b.isLt
      have hb' : b.val ≠ 1 := fun e => hb (Fin.ext e)
      have hb0 : b = (⟨0, by decide⟩ : Fin 2) := Fin.ext (by show b.val = 0; omega)
      rw [hb0]
      rfl
    · show c.val - 4096 + 4096 = c.val; omega
    · refine (right_apply _ _ _ _ _ _ _).trans ?_
      rw [weight_apply, const_apply, const_apply, const_apply,
        slice_apply x 0 _ r ⟨c.val - 4096, hlt⟩ ⟨c.val - 4096, hlt'⟩ (by show c.val - 4096 = 0 + (c.val - 4096); omega),
        slice_apply x 4096 _ r ⟨c.val - 4096, hlt⟩ c (by show c.val = 4096 + (c.val - 4096); omega),
        selu_expm1]

end Cert.ReferenceIdeal.Rows

end
-- ==== Proof.lean ====
/-
  The kernel and its reference compute one function of `x : [4096, 8192]` and `weight : [4096]` over the extended
  reals: with `p`, `q` the left and right halves of `x`, the result's left half is `p` and its right half is
  `weight[r] * selu(p[r, c]) + q[r, c]`, where `selu(t) = scale * (t if t > 0 else alpha * (e^t - 1))`
  (Proof/Selu.lean: `Cert.SeluRows.result`).

  The kernel (Proof/KernelValue.lean): 32 grid points, point `t` on rows `128 t …`; its body copies the left half of
  its block and stores `w * selu(left) + right` into the right half, the weight column broadcast along the row; the
  32 blocks written back tile the array.
  The reference (Proof/RefRun.lean, Proof/RefValue.lean): twenty-seven host operations in a straight line; jax's `selu`
  is `scale * where(p > 0, p, alpha * expm1(where(p > 0, 0, p)))`, which is the same function of `p` because under the
  exponential branch the inner `where` is `p` and `expm1 p = e^p - 1`. The three constants are the same binary32
  values in both programs and are never evaluated, except the literal one, which is the extended real one. No
  finiteness of the inputs is used.

  The three frames are the programs' runs with the result dropped; the idealization rewrote nothing, so
  `preserves` is trivial.
-/
import proofs.«179349_j15307263442966_1_alg».proof.Defs
import proofs.«179349_j15307263442966_1_alg».proof.Proof.Gen.Kernel
import proofs.«179349_j15307263442966_1_alg».proof.Proof.Gen.Kernel.Frame
import proofs.«179349_j15307263442966_1_alg».proof.Proof.Gen.KernelIdeal
import proofs.«179349_j15307263442966_1_alg».proof.Proof.Gen.KernelIdeal.Frame
import proofs.«179349_j15307263442966_1_alg».proof.Proof.Gen.KernelIdeal.Value
import proofs.«179349_j15307263442966_1_alg».proof.Proof.Gen.ReferenceIdeal
import proofs.«179349_j15307263442966_1_alg».proof.Proof.Gen.Pre_finite_inputs
import proofs.«179349_j15307263442966_1_alg».proof.Proof.KernelValue
import proofs.«179349_j15307263442966_1_alg».proof.Proof.RefRun
import proofs.«179349_j15307263442966_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its straight-line run, the result dropped. -/
theorem frame_reference : Cert.frame_ReferenceIdeal := fun m ρ _ =>
  (θ_run Cert.ReferenceIdeal.defs _ _).mono (fun _ h c => (h c).2) (Cert.ReferenceIdeal.Straight.run (F := Ideal) m ρ)

/-- The idealization rewrote no operation. -/
theorem preserves : Cert.preserves_Kernel_KernelIdeal := trivial

/-- Both programs end with their result array at `Cert.SeluRows.result` of the (agreeing) arguments. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2]
  exact Cert.ReferenceIdeal.Rows.out_eq_result _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
